-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16x4096x256 .f32) (main_arg1 : FVec F S256x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S16x4096x256 : Shape := ⟨3, ![16, 4096, 256]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S16x4096x128 : Shape := ⟨3, ![16, 4096, 128]⟩
abbrev S2x4096x256 : Shape := ⟨3, ![2, 4096, 256]⟩
abbrev S2x4096x128 : Shape := ⟨3, ![2, 4096, 128]⟩
abbrev S8192x256 : Shape := ⟨2, ![8192, 256]⟩
abbrev S8192x128 : Shape := ⟨2, ![8192, 128]⟩
abbrev S1x4096 : Shape := ⟨2, ![1, 4096]⟩
abbrev S1x4096x128 : Shape := ⟨3, ![1, 4096, 128]⟩
abbrev S4096x128 : Shape := ⟨2, ![4096, 128]⟩

abbrev nBuf : Space → Nat
  | .hbm => 11
  | .vmem => 10
  | .smem => 0
  | _ => 0

abbrev bufTy : (tb : Table) → Fin (tcTables nBuf tb) → BufTy
  | .hbm, ⟨0, _⟩ => ⟨S16x4096x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S16x4096x128, .f32⟩
  | .local _ .vmem, ⟨0, _⟩ => ⟨S2x4096x256, .f32⟩
  | .local _ .vmem, ⟨1, _⟩ => ⟨S2x4096x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2x4096x128, .f32⟩
  | .local _ .vmem, ⟨9, _⟩ => ⟨S2x4096x128, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  inb_S2x4096x256_S2x4096x256_0_0_0 : ∀ a, (![0, 0, 0] : Fin 3 → Nat) a + S2x4096x256.size a ≤ S2x4096x256.size a
  h_S2x4096x256 : 0 < S2x4096x256.numel
  shapeCasts_S2x4096x256_S8192x256 : S2x4096x256.ShapeCasts S8192x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S8192x128_S2x4096x128 : S8192x128.ShapeCasts S2x4096x128
  slices_S2x4096x128_o0_0_0_S1x4096x128 : S2x4096x128.Slices ![0, 0, 0] S1x4096x128
  shapeCasts_S1x4096x128_S4096x128 : S1x4096x128.ShapeCasts S4096x128
  broadcasts_S1x128_S4096x128 : S1x128.Broadcasts S4096x128
  inb_S2x4096x128_S1x4096x128_0_0_0 : ∀ a, (![0, 0, 0] : Fin 3 → Nat) a + S1x4096x128.size a ≤ S2x4096x128.size a
  h_S1x4096x128 : 0 < S1x4096x128.numel
  shapeCasts_S4096x128_S1x4096x128 : S4096x128.ShapeCasts S1x4096x128
  slices_S2x4096x128_o1_0_0_S1x4096x128 : S2x4096x128.Slices ![1, 0, 0] S1x4096x128
  inb_S2x4096x128_S1x4096x128_1_0_0 : ∀ a, (![1, 0, 0] : Fin 3 → Nat) a + S1x4096x128.size a ≤ S2x4096x128.size a
  dot_S8192x256_S256x128_S8192x128_1_0_0_1_n_n_wf : DotDims.WF S8192x256 S256x128 S8192x128 [1] [0] [0] [1] [] []
  dot_S8192x128_S128x128_S8192x128_1_0_0_1_n_n_wf : DotDims.WF S8192x128 S128x128 S8192x128 [1] [0] [0] [1] [] []
  dot_S1x4096_S4096x128_S1x128_1_0_0_1_n_n_wf : DotDims.WF S1x4096 S4096x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x256.size a ≤ S16x4096x256.size a
  hwx0_0 : ∀ i : grid0.Coords, EltTy.bits .f32 = 32 ∨ (Rect.block (s := S16x4096x256) S2x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x4096x128.size a ≤ S16x4096x128.size a
  hwx0_7 : ∀ i : grid0.Coords, EltTy.bits .f32 = 32 ∨ (Rect.block (s := S16x4096x128) S2x4096x128.size (cc0_transform_7 i) (hinb0_7 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x4096_S4096x128_S1x128_1_0_0_1_n_n : DotDims S1x4096 S4096x128 S1x128 where
  lhsContracting := [1]
  rhsContracting := [0]
  lhsNonContracting := [0]
  rhsNonContracting := [1]
  lhsBatch := []
  rhsBatch := []
  wf := dot_S1x4096_S4096x128_S1x128_1_0_0_1_n_n_wf

abbrev win0_0 : Pipeline.Window sig grid0 :=
  Pipeline.Window.ofSpec (Memref.whole main_arg0) S2x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2x4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S256x128 : Shape := ⟨2, ![256, 128]⟩
abbrev S128 : Shape := ⟨1, ![128]⟩
abbrev S128x128 : Shape := ⟨2, ![128, 128]⟩
abbrev S16x4096x128 : Shape := ⟨3, ![16, 4096, 128]⟩
abbrev S1x1x128 : Shape := ⟨3, ![1, 1, 128]⟩
abbrev S_ : Shape := ⟨0, ![]⟩
abbrev S16x128 : Shape := ⟨2, ![16, 128]⟩
abbrev S16x1x128 : Shape := ⟨3, ![16, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x4096x128, .f32⟩
  | .hbm, ⟨8, _⟩ => ⟨S1x1x128, .f32⟩
  | .hbm, ⟨9, _⟩ => ⟨S16x4096x128, .f32⟩
  | .hbm, ⟨10, _⟩ => ⟨S16x4096x128, .f32⟩
  | .hbm, ⟨11, _⟩ => ⟨S16x4096x128, .f32⟩
  | .hbm, ⟨12, _⟩ => ⟨S1x1x128, .f32⟩
  | .hbm, ⟨13, _⟩ => ⟨S16x4096x128, .f32⟩
  | .hbm, ⟨14, _⟩ => ⟨S16x4096x128, .f32⟩
  | .hbm, ⟨15, _⟩ => ⟨S_, .f32⟩
  | .hbm, ⟨16, _⟩ => ⟨S16x4096x128, .f32⟩
  | .hbm, ⟨17, _⟩ => ⟨S16x4096x128, .f32⟩
  | .hbm, ⟨18, _⟩ => ⟨S16x4096x128, .f32⟩
  | .hbm, ⟨19, _⟩ => ⟨S1x1x128, .f32⟩
  | .hbm, ⟨20, _⟩ => ⟨S16x4096x128, .f32⟩
  | .hbm, ⟨21, _⟩ => ⟨S16x4096x128, .f32⟩
  | .hbm, ⟨22, _⟩ => ⟨S_, .f32⟩
  | .hbm, ⟨23, _⟩ => ⟨S16x128, .f32⟩
  | .hbm, ⟨24, _⟩ => ⟨S16x1x128, .f32⟩
  | .hbm, ⟨25, _⟩ => ⟨S16x4096x128, .f32⟩
  | .hbm, ⟨26, _⟩ => ⟨S16x4096x128, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x4096x128_0_1_2 : S1x1x128.BroadcastsInDim S16x4096x128 (![0, 1, 2] : Fin 3 → Fin S16x4096x128.rank)
  bcast_S_S16x4096x128 : S_.BroadcastsInDim S16x4096x128 (![] : Fin 0 → Fin S16x4096x128.rank)
  reducesTo_S16x4096x128_S16x128_d1 : S16x4096x128.ReducesTo [1] S16x128
  h_S_ : 0 < S_.numel
  bcast_S16x128_S16x1x128_0_2 : S16x128.BroadcastsInDim S16x1x128 (![0, 2] : Fin 2 → Fin S16x1x128.rank)
  bcast_S16x1x128_S16x4096x128_0_1_2 : S16x1x128.BroadcastsInDim S16x4096x128 (![0, 1, 2] : Fin 3 → Fin S16x4096x128.rank)
  dot_S16x4096x256_S256x128_S16x4096x128_2_0_01_1_n_n_wf : DotDims.WF S16x4096x256 S256x128 S16x4096x128 [2] [0] [0, 1] [1] [] []
  dot_S16x4096x128_S128x128_S16x4096x128_2_0_01_1_n_n_wf : DotDims.WF S16x4096x128 S128x128 S16x4096x128 [2] [0] [0, 1] [1] [] []

variable [Facts₀]

def dot_S16x4096x256_S256x128_S16x4096x128_2_0_01_1_n_n : DotDims S16x4096x256 S256x128 S16x4096x128 where
  lhsContracting := [2]
  rhsContracting := [0]
  lhsNonContracting := [0, 1]
  rhsNonContracting := [1]
  lhsBatch := []
  rhsBatch := []
  wf := dot_S16x4096x256_S256x128_S16x4096x128_2_0_01_1_n_n_wf
def dot_S16x4096x128_S128x128_S16x4096x128_2_0_01_1_n_n : DotDims S16x4096x128 S128x128 S16x4096x128 where
  lhsContracting := [2]
  rhsContracting := [0]
  lhsNonContracting := [0, 1]
  rhsNonContracting := [1]
  lhsBatch := []
  rhsBatch := []
  wf := dot_S16x4096x128_S128x128_S16x4096x128_2_0_01_1_n_n_wf

class Facts : Prop extends Facts₀ where

variable [Facts]
-- ==== Proof.LooSpec.lean ====
/-
  The function both programs compute, on the extended reals.

  A row `x` of 256 features goes through three affine layers with a rectifier after the second:
      p = x · W_proj + b_proj,   h = max (p · W1 + b1) 0,   m = h · W2 + b2     (each a row of 128).
  Writing `m b n` for the image of row `n` of batch `b`, the output at `(b, n, e)` is the sum over every row `k` of
  the batch of `m b k e`, minus `m b n e`: the sum of the other rows' images (when all are finite).
  Every product with a matrix is a finite sum over the inner axis; nothing here needs the entries to be finite, because
  the two programs perform the same additions and multiplications and differ only in how the rows are laid out and
  in one factor `1` and one summand `0`.
-/
import Idealize.ShloMosaic.Lib.ValueIdx
import Idealize.ShloMosaic.PureOps.Ideal

noncomputable section

namespace Cert.LooSpec

open Idealize.ShloMosaic Idealize.ShloMosaic.ValueIdx

/-- One affine layer applied to a row: `(x · w + b) e = Σ_d x d * w (d, e) + b e`. -/
def affine {K N : ℕ} (w : (⟨2, ![K, N]⟩ : Shape).Idx → EReal) (b : Fin N → EReal) (x : Fin K → EReal) : Fin N → EReal :=
  fun e => (∑ d : Fin K, x d * w (ix2 d e)) + b e

/-- The three layers applied to a row, the rectifier `max · 0` after the second. -/
def mlp (w0 : (⟨2, ![256, 128]⟩ : Shape).Idx → EReal) (b0 : Fin 128 → EReal)
    (w1 : (⟨2, ![128, 128]⟩ : Shape).Idx → EReal) (b1 : Fin 128 → EReal)
    (w2 : (⟨2, ![128, 128]⟩ : Shape).Idx → EReal) (b2 : Fin 128 → EReal) (x : Fin 256 → EReal) : Fin 128 → EReal :=
  affine w2 b2 (fun d => max (affine w1 b1 (affine w0 b0 x) d) 0)

/-- Leave-one-out over the rows of a stack `P` of `B` matrices of `R` rows: the column sum of matrix `b` minus the entry. -/
def loo {B R N : ℕ} (P : (⟨3, ![B, R, N]⟩ : Shape).Idx → EReal) (b : Fin B) (r : Fin R) (e : Fin N) : EReal :=
  (∑ k : Fin R, P (ix3 b k e)) - P (ix3 b r e)

/-- The three layers applied to every row of `X`, with the biases given as rank-1 arrays. -/
def rows (X : (⟨3, ![16, 4096, 256]⟩ : Shape).Idx → EReal)
    (w0 : (⟨2, ![256, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) :
    (⟨3, ![16, 4096, 128]⟩ : Shape).Idx → EReal :=
  fun i => mlp w0 (fun e => b0 (ix1 e)) w1 (fun e => b1 (ix1 e)) w2 (fun e => b2 (ix1 e)) (fun d => X (ix3 (i 0) (i 1) d)) (i 2)

/-- The whole result array as one function of the seven argument arrays. -/
def out (X : (⟨3, ![16, 4096, 256]⟩ : Shape).Idx → EReal)
    (w0 : (⟨2, ![256, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) :
    (⟨3, ![16, 4096, 128]⟩ : Shape).Idx → EReal :=
  fun i => loo (rows X w0 b0 w1 b1 w2 b2) (i 0) (i 1) (i 2)

theorem rows_ix3 (X : (⟨3, ![16, 4096, 256]⟩ : Shape).Idx → EReal)
    (w0 : (⟨2, ![256, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (b : Fin 16) (r : Fin 4096) (e : Fin 128) :
    rows X w0 b0 w1 b1 w2 b2 (ix3 b r e)
      = mlp w0 (fun e => b0 (ix1 e)) w1 (fun e => b1 (ix1 e)) w2 (fun e => b2 (ix1 e)) (fun d => X (ix3 b r d)) e := rfl

theorem out_ix3 (X : (⟨3, ![16, 4096, 256]⟩ : Shape).Idx → EReal)
    (w0 : (⟨2, ![256, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (b : Fin 16) (r : Fin 4096) (e : Fin 128) :
    out X w0 b0 w1 b1 w2 b2 (ix3 b r e) = loo (rows X w0 b0 w1 b1 w2 b2) b r e := rfl

end Cert.LooSpec

end
-- ==== Proof.LibPlainMatmul.lean ====
/-
  A plain matrix product read at an index, at the ideal values.

  For the dimension numbers of an ordinary product of an `M × K` matrix by a `K × N` matrix (contract the left
  operand's axis 1 with the right operand's axis 0, no batch axis), the product accumulated into the zero matrix
  is, at row `r` and column `e`, the sum over `k < K` of `lhs (r, k) * rhs (k, e)` on the extended reals: no
  rounding, no chunk order, and the zero accumulator contributes `0 +`. Stated over literal-size coordinates
  (`ix2 r e`) so that it applies to a printed product by unification; a printed record of dimension numbers with
  these six lists is `DotDims.plain M K N` up to the proof of its well-formedness, which is irrelevant.
-/
import Idealize.ShloMosaic.Lib.ValueIdx
import Idealize.ShloMosaic.PureOps.Ideal.Laws

noncomputable section

namespace Idealize.ShloMosaic.PlainMatmul

open Idealize.ShloMosaic Idealize.ShloMosaic.ValueIdx

/-- The contraction shape of a plain product has one axis, of extent `K`. -/
theorem contr_rank (M K N : ℕ) : (DotDims.plain M K N).contr.rank = 1 := rfl

theorem contr_size (M K N : ℕ) : (DotDims.plain M K N).contr.size ⟨0, by rw [contr_rank]; exact Nat.one_pos⟩ = K := rfl

/-- The operands' coordinates at output index `j` and contraction index `q`: the left operand reads `j`'s row and `q`,
    the right operand `q` and `j`'s column. -/
theorem lhs_val0 (M K N : ℕ) (j : (⟨2, ![M, N]⟩ : Shape).Idx) (q : (DotDims.plain M K N).contr.Idx) :
    ((DotDims.plain M K N).lhsIdx j q 0).val = (j 0).val := rfl
theorem lhs_val1 (M K N : ℕ) (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q
theorem rhs_val0 (M K N : ℕ) (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q
theorem rhs_val1 (M K N : ℕ) (j : (⟨2, ![M, N]⟩ : Shape).Idx) (q : (DotDims.plain M K N).contr.Idx) :
    ((DotDims.plain M K N).rhsIdx j q 1).val = (j 1).val := rfl

/-- So at output `(r, e)` and contraction coordinate `k` the left operand is read at `(r, k)` and the right at `(k, e)`. -/
theorem lhsIdx_eq (M K N : ℕ) (r : Fin M) (e : Fin N) (k : Fin K) :
    (DotDims.plain M K N).lhsIdx (ix2 r e) ((contrEquiv1 (DotDims.plain M K N) K (contr_rank M K N) (contr_size M K N)).symm k) = ix2 r k := by
  have hk := contrEquiv1_symm_val (DotDims.plain M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.plain M K N).rhsIdx (ix2 r e) ((contrEquiv1 (DotDims.plain M K N) K (contr_rank M K N) (contr_size M K N)).symm k) = ix2 k e := by
  have hk := contrEquiv1_symm_val (DotDims.plain M K N) K (contr_rank M K N) (contr_size M K N) k
  funext a
  refine Fin.ext ?_
  match a with
  | ⟨0, _⟩ => exact (rhs_val0 M K N _ _).trans hk
  | ⟨1, _⟩ => exact rhs_val1 M K N _ _

/-- A plain product into the zero matrix, at `(r, e)`: the sum over the inner axis of the operands' products. -/
theorem matmul_zero_apply (M K N : ℕ) (prec : Option ContractPrecision)
    (lhs : FVec Ideal ⟨2, ![M, K]⟩ .f32) (rhs : FVec Ideal ⟨2, ![K, N]⟩ .f32) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibLeadAxes.lean ====
/-
  Layout operations on the two leading axes of a rank-3 array, read at an index given by coordinates.

  • Flattening `[A, B, C]` to `[A·B, C]` (the rows of a stack of matrices laid one after another) reads, at `(R, c)` with
    `R = a·B + b`, the operand at `(a, b, c)`; un-flattening reads the other way. Both are the row-major position
    `(a·B + b)·C + c` spelt in two ways.
  • A slice along axis 0 from offset `o` reads, at `(u, k, e)`, the operand at `(o + u, k, e)`.
  Stated over `ixN` coordinates of literal `Fin` types so that they apply to a printed operation by unification.
-/
import Idealize.ShloMosaic.Lib.Pipeline.Value
import Idealize.ShloMosaic.Lib.ValueIdx

namespace Idealize.ShloMosaic.LeadAxes

open Idealize.ShloMosaic Idealize.ShloMosaic.ValueIdx

variable {α : Type}

/-- `[A, B, C]` flattened to `[n, C]` (`n = A·B`): at `(R, c)` with `R = a·B + b` it is the operand at `(a, b, c)`. -/
theorem shapeCast_merge_apply {A B C n : ℕ} (x : (⟨3, ![A, B, C]⟩ : Shape).Idx → α)
    (h : (⟨3, ![A, B, C]⟩ : Shape).ShapeCasts ⟨2, ![n, C]⟩) (a : Fin A) (b : Fin B) (c : Fin C) (R : Fin n)
    (hR : R.val = a.val * B + b.val) : shapeCast ⟨2, ![n, C]⟩ x h (ix2 R c) = x (ix3 a b c) :=
  shapeCast_apply x h _ _ (by
    rw [Shape.rowMajor_val_three, Shape.rowMajor_val_two]
    show (a.val * B + b.val) * C + c.val = R.val * C + c.val
    rw [hR])

/-- `[n, C]` un-flattened to `[A, B, C]` (`n = A·B`): at `(a, b, c)` it is the operand at `(R, c)` with `R = a·B + b`. -/
theorem shapeCast_split_apply {A B C n : ℕ} (x : (⟨2, ![n, C]⟩ : Shape).Idx → α)
    (h : (⟨2, ![n, C]⟩ : Shape).ShapeCasts ⟨3, ![A, B, C]⟩) (a : Fin A) (b : Fin B) (c : Fin C) (R : Fin n)
    (hR : R.val = a.val * B + b.val) : shapeCast ⟨3, ![A, B, C]⟩ x h (ix3 a b c) = x (ix2 R c) :=
  shapeCast_apply x h _ _ (by
    rw [Shape.rowMajor_val_three, Shape.rowMajor_val_two]
    show R.val * C + c.val = (a.val * B + b.val) * C + c.val
    rw [hR])

/-- A rank-3 array cut along axis 0 from `o` reads, at `(u, k, e)`, the source at `(b, k, e)` with `b = o + u`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (u : Fin m) (k : Fin n1) (e : Fin n2) (b : Fin n0) (hb : b.val = o + u.val) :
    extractStridedSlice ⟨3, ![m, n1, n2]⟩ ![o, 0, 0] X h (ix3 u k e) = X (ix3 b k e) :=
  extractStridedSlice_apply _ _ _ _ _ (fun ax => by
    match ax with
    | ⟨0, _⟩ => exact hb
    | ⟨1, _⟩ => exact (Nat.zero_add _).symm
    | ⟨2, _⟩ => exact (Nat.zero_add _).symm)

end Idealize.ShloMosaic.LeadAxes
-- ==== Proof.KernelPayload.lean ====
/-
  What the kernel's body stores, as a function of the blocks it loads, at the ideal values.

  The body flattens its `[2, 4096, 256]` block of `X` to `8192` rows, sends every row through the three layers (each a
  product with a weight matrix into a zero accumulator plus a one-row bias broadcast over the rows, the rectifier after
  the second), un-flattens to `[2, 4096, 128]`, and for each of the two batches of the block multiplies a row of ones
  by that batch's `4096 × 128` matrix — the column sums, since `1 * x = x` — and stores the column sums minus the
  matrix. Row `R = b·4096 + r` of the flattened block is row `r` of batch `b`, so the un-flattened value at `(b, r, e)`
  is `LooSpec.mlp` of row `(b, r)` of the block, and what is stored for batch `b` at `(r, e)` is `LooSpec.loo` of it.
  The two stores fill the two halves of the output block, so the block after the body is one function of its index.
-/
import proofs.«110217_j31619549233246_2_alg».proof.Proof.Gen.KernelIdeal.Frame
import proofs.«110217_j31619549233246_2_alg».proof.Proof.LooSpec
import proofs.«110217_j31619549233246_2_alg».proof.Proof.LibPlainMatmul
import proofs.«110217_j31619549233246_2_alg».proof.Proof.LibLeadAxes
import Idealize.ShloMosaic.Lib.ValueLayout
import Idealize.ShloMosaic.Lib.IdealHost

noncomputable section

namespace Cert.KernelIdeal.LooValue

open Cert.KernelIdeal Cert.KernelIdeal.Gen Cert.LooSpec Idealize.ShloMosaic Idealize.ShloMosaic.ValueIdx

/-! ## One layer, and the three layers, at a row -/

/-- A kernel layer at `(R, e)`: the product into the zero accumulator plus the broadcast one-row bias is the affine layer
    of row `R`. -/
theorem layer_at (K : ℕ) (prec : Option ContractPrecision) (x : FVec Ideal ⟨2, ![8192, K]⟩ .f32) (w : FVec Ideal ⟨2, ![K, 128]⟩ .f32)
    (bias : FVec Ideal ⟨2, ![1, 128]⟩ .f32) (h1 : (⟨2, ![1, 128]⟩ : Shape).ShapeCasts ⟨2, ![1, 128]⟩)
    (h2 : (⟨2, ![1, 128]⟩ : Shape).Broadcasts ⟨2, ![8192, 128]⟩) (R : Fin 8192) (e : Fin 128) :
    addf (matmul (DotDims.plain 8192 K 128) prec x w (constant (F := Ideal) ⟨2, ![8192, 128]⟩ .f32 0x00000000#32))
        (broadcastTo ⟨2, ![8192, 128]⟩ (shapeCast ⟨2, ![1, 128]⟩ bias h1) h2) (ix2 R e)
      = affine w (fun e => bias (ix2 (0 : Fin 1) e)) (fun d => x (ix2 R d)) e := by
  rw [addf_apply, PlainMatmul.matmul_zero_apply, broadcastTo_1b_ab_apply, shapeCast_self]
  rfl

/-- Row `r` of batch `b` of a two-batch block is row `b·4096 + r` of the flattened block. -/
def rowOf (b : Fin 2) (r : Fin 4096) : Fin 8192 := ⟨b.val * 4096 + r.val, by have := b.isLt; have := r.isLt; omega⟩

/-- The un-flattened three-layer value at `(b, r, e)` is the three layers of row `(b, r)` of the loaded block. -/
theorem pay2_at (v0 : Vec Ideal S2x4096x256 .f32) (v2 : Vec Ideal S256x128 .f32) (v3 : Vec Ideal S1x128 .f32)
    (v8 : Vec Ideal S128x128 .f32) (v9 : Vec Ideal S1x128 .f32) (v16 : Vec Ideal S128x128 .f32) (v17 : Vec Ideal S1x128 .f32)
    (b : Fin 2) (r : Fin 4096) (e : Fin 128) :
    k0_pay2 v0 v2 v3 v8 v9 v16 v17 (ix3 b r e)
      = mlp v2 (fun e => v3 (ix2 (0 : Fin 1) e)) v8 (fun e => v9 (ix2 (0 : Fin 1) e)) v16 (fun e => v17 (ix2 (0 : Fin 1) e))
          (fun d => v0 (ix3 b r d)) e := by
  unfold k0_pay2 mlp
  refine (LeadAxes.shapeCast_split_apply _ _ b r e (rowOf b r) rfl).trans ?_
  refine (layer_at 128 _ _ v16 v17 _ _ (rowOf b r) e).trans ?_
  refine congrArg (fun x => affine v16 (fun e => v17 (ix2 (0 : Fin 1) e)) x e) (funext fun d => ?_)
  refine (congrArg (max _) Ideal.ofBits_zero_f32).trans ?_
  refine congrArg (max · 0) ?_
  refine (layer_at 128 _ _ v8 v9 _ _ (rowOf b r) d).trans ?_
  refine congrArg (fun x => affine v8 (fun e => v9 (ix2 (0 : Fin 1) e)) x d) (funext fun d' => ?_)
  refine (layer_at 256 _ _ v2 v3 _ _ (rowOf b r) d').trans ?_
  refine congrArg (fun x => affine v2 (fun e => v3 (ix2 (0 : Fin 1) e)) x d') (funext fun d'' => ?_)
  exact LeadAxes.shapeCast_merge_apply v0 _ b r d'' (rowOf b r) rfl

/-! ## The column sums minus the matrix -/

/-- The row of ones: the word `0x3F800000` is `1`. -/
theorem ones_at (k : Fin 4096) : k0_pay3 (F := Ideal) (ix2 (0 : Fin 1) k) = 1 := Ideal.ofBits_one_f32

/-- A row of ones times a `4096 × 128` matrix, broadcast over the rows, minus the matrix, stored as a `[1, 4096, 128]`
    block: at `(u, r, e)` the column sum minus the entry. -/
theorem colsum_sub_at (prec : Option ContractPrecision) (ones : FVec Ideal ⟨2, ![1, 4096]⟩ .f32)
    (hones : ∀ k : Fin 4096, ones (ix2 (0 : Fin 1) k) = 1) (M : FVec Ideal ⟨2, ![4096, 128]⟩ .f32)
    (h2 : (⟨2, ![1, 128]⟩ : Shape).Broadcasts ⟨2, ![4096, 128]⟩)
    (h3 : (⟨2, ![4096, 128]⟩ : Shape).ShapeCasts ⟨3, ![1, 4096, 128]⟩) (u : Fin 1) (r : Fin 4096) (e : Fin 128) :
    shapeCast ⟨3, ![1, 4096, 128]⟩ (subf (broadcastTo ⟨2, ![4096, 128]⟩
        (matmul (DotDims.plain 1 4096 128) prec ones M (constant (F := Ideal) ⟨2, ![1, 128]⟩ .f32 0x00000000#32)) h2) M) h3 (ix3 u r e)
      = (∑ k : Fin 4096, M (ix2 k e)) - M (ix2 r e) := by
  rw [shapeCast_ab_1ab_apply, subf_apply, broadcastTo_1b_ab_apply, PlainMatmul.matmul_zero_apply]
  refine congrArg (· - M (ix2 r e)) (Finset.sum_congr rfl fun k _ => ?_)
  rw [hones k, one_mul]

/-- Batch `b` of a `[2, 4096, 128]` value, as the `4096 × 128` matrix the body slices out (`o` the slice's offset). -/
theorem slab_at (P : FVec Ideal ⟨3, ![2, 4096, 128]⟩ .f32) (o : ℕ) (b : Fin 2) (hb : b.val = o)
    (hs : (⟨3, ![2, 4096, 128]⟩ : Shape).Slices ![o, 0, 0] ⟨3, ![1, 4096, 128]⟩)
    (h1 : (⟨3, ![1, 4096, 128]⟩ : Shape).ShapeCasts ⟨2, ![4096, 128]⟩) (k : Fin 4096) (e : Fin 128) :
    shapeCast ⟨2, ![4096, 128]⟩ (extractStridedSlice ⟨3, ![1, 4096, 128]⟩ ![o, 0, 0] P hs) h1 (ix2 k e) = P (ix3 b k e) := by
  rw [shapeCast_1ab_ab_apply]
  exact LeadAxes.slice3_axis0_apply o P hs (0 : Fin 1) k e b (by rw [hb]; rfl)

/-- The first store (batch 0 of the block): at `(u, r, e)`, leave-one-out of the three-layer value over batch 0. -/
theorem pay4_at (v0 : Vec Ideal S2x4096x256 .f32) (v2 : Vec Ideal S256x128 .f32) (v3 : Vec Ideal S1x128 .f32)
    (v8 : Vec Ideal S128x128 .f32) (v9 : Vec Ideal S1x128 .f32) (v16 : Vec Ideal S128x128 .f32) (v17 : Vec Ideal S1x128 .f32)
    (u : Fin 1) (r : Fin 4096) (e : Fin 128) :
    k0_pay4 v0 v2 v3 v8 v9 v16 v17 (ix3 u r e) = loo (k0_pay2 v0 v2 v3 v8 v9 v16 v17) (0 : Fin 2) r e := by
  unfold k0_pay4 loo
  refine (colsum_sub_at _ _ ones_at _ _ _ u r e).trans ?_
  rw [slab_at _ 0 (0 : Fin 2) rfl]
  refine congrArg (· - _) (Finset.sum_congr rfl fun k _ => ?_)
  rw [slab_at _ 0 (0 : Fin 2) rfl]

/-- The second store (batch 1 of the block). -/
theorem pay1_at (v0 : Vec Ideal S2x4096x256 .f32) (v2 : Vec Ideal S256x128 .f32) (v3 : Vec Ideal S1x128 .f32)
    (v8 : Vec Ideal S128x128 .f32) (v9 : Vec Ideal S1x128 .f32) (v16 : Vec Ideal S128x128 .f32) (v17 : Vec Ideal S1x128 .f32)
    (u : Fin 1) (r : Fin 4096) (e : Fin 128) :
    k0_pay1 (k0_pay3 (F := Ideal)) (k0_pay5 v0 v2 v3 v8 v9 v16 v17) (ix3 u r e)
      = loo (k0_pay2 v0 v2 v3 v8 v9 v16 v17) (1 : Fin 2) r e := by
  unfold k0_pay1 k0_pay5 loo
  refine (colsum_sub_at _ _ ones_at _ _ _ u r e).trans ?_
  rw [slab_at _ 1 (1 : Fin 2) rfl]
  refine congrArg (· - _) (Finset.sum_congr rfl fun k _ => ?_)
  rw [slab_at _ 1 (1 : Fin 2) rfl]

/-! ## The output block after the body -/

/-- The output block as one function of the loaded blocks: leave-one-out of the three-layer value within each batch. -/
def blockOut (x0 : Vec Ideal S2x4096x256 .f32) (x1 : Vec Ideal S256x128 .f32) (x2 : Vec Ideal S1x128 .f32)
    (x3 : Vec Ideal S128x128 .f32) (x4 : Vec Ideal S1x128 .f32) (x5 : Vec Ideal S128x128 .f32) (x6 : Vec Ideal S1x128 .f32) :
    Vec Ideal S2x4096x128 .f32 :=
  fun y => loo (k0_pay2 x0 x1 x2 x3 x4 x5 x6) (y 0) (y 1) (y 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The two stores are the two batches of `blockOut`, and they fill the block. -/
theorem out_eq (x0 : Vec Ideal S2x4096x256 .f32) (x1 : Vec Ideal S256x128 .f32) (x2 : Vec Ideal S1x128 .f32)
    (x3 : Vec Ideal S128x128 .f32) (x4 : Vec Ideal S1x128 .f32) (x5 : Vec Ideal S128x128 .f32) (x6 : Vec Ideal S1x128 .f32) :
    out0_7 x0 x1 x2 x3 x4 x5 x6 = blockOut x0 x1 x2 x3 x4 x5 x6 := by
  funext y
  unfold out0_7
  simp only [View.ld_unit_zero (S := S2x4096x256) hz3, View.ld_unit_zero (S := S256x128) hz2,
    View.ld_unit_zero (S := S1x128) hz2, View.ld_unit_zero (S := S128x128) hz2]
  refine View.canon_apply_of_pieces (blockOut x0 x1 x2 x3 x4 x5 x6) _ ?_ y (cover0_7 _ _ y)
  intro p hp x
  rcases List.mem_cons.mp hp with rfl | hp
  · obtain ⟨u, r, e, rfl⟩ : ∃ (u : Fin 1) (r : Fin 4096) (e : Fin 128), x = ix3 u r e := ⟨x 0, x 1, x 2, eq_ix3 x⟩
    refine (pay1_at x0 x1 x2 x3 x4 x5 x6 u r e).trans ?_
    have hu : u.val = 0 := by omega
    have he : r0_5.emb (ix3 u r e) = ix3 (1 : Fin 2) r e := funext fun a => Fin.ext (by
      match a with
      | ⟨0, _⟩ => show 1 + 1 * u.val = 1; omega
      | ⟨1, _⟩ => show 0 + 1 * r.val = r.val; omega
      | ⟨2, _⟩ => show 0 + 1 * e.val = e.val; omega)
    show _ = blockOut x0 x1 x2 x3 x4 x5 x6 (r0_5.emb (ix3 u r e))
    rw [he]
    rfl
  · rcases List.mem_cons.mp hp with rfl | hp
    · obtain ⟨u, r, e, rfl⟩ : ∃ (u : Fin 1) (r : Fin 4096) (e : Fin 128), x = ix3 u r e := ⟨x 0, x 1, x 2, eq_ix3 x⟩
      refine (pay4_at x0 x1 x2 x3 x4 x5 x6 u r e).trans ?_
      have hu : u.val = 0 := by omega
      have he : r0_4.emb (ix3 u r e) = ix3 (0 : Fin 2) r e := funext fun a => Fin.ext (by
        match a with
        | ⟨0, _⟩ => show 0 + 1 * u.val = 0; omega
        | ⟨1, _⟩ => show 0 + 1 * r.val = r.val; omega
        | ⟨2, _⟩ => show 0 + 1 * e.val = e.val; omega)
      show _ = blockOut x0 x1 x2 x3 x4 x5 x6 (r0_4.emb (ix3 u r e))
      rw [he]
      rfl
    · exact absurd hp List.not_mem_nil

end Cert.KernelIdeal.LooValue

end
-- ==== Proof.KernelValue.lean ====
/-
  From the blocks to the whole array: the kernel's result is `LooSpec.out` of the seven argument arrays.

  The grid has 8 points; point `t` works on batches `2t` and `2t + 1`: its block of `X` and its output block sit at
  block index `t` on the batch axis and `0` on the other two, and every weight and bias window is its whole array at
  every point. The three biases reach the kernel as one-row matrices that the host reshaped from the rank-1 arguments.
  So the blocks a point loads are rows `2t, 2t+1` of `X` and the whole weights and biases, what it writes back is
  block `t` of `LooSpec.out` — the leave-one-out sum runs over the rows of ONE batch, and a block holds whole
  batches —, and the 8 output blocks cover the `[16, 4096, 128]` result: batch `B` lies in block `B / 2`.
-/
import proofs.«110217_j31619549233246_2_alg».proof.Proof.Gen.KernelIdeal.Value
import proofs.«110217_j31619549233246_2_alg».proof.Proof.KernelPayload
import Idealize.ShloMosaic.Lib.StableHlo.Run

noncomputable section

namespace Cert.KernelIdeal.LooValue

open Cert.KernelIdeal Cert.KernelIdeal.Gen Cert.LooSpec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the grid -/

/-- Decided over the 8 points: the block of `X` and the output block move with the point along the batch axis; every
    other window stays at block `(0, 0)`. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the region finds, and each window's block read at an index -/

theorem V_v0 (c : Dev nD) : (V m c main_v0 : S1x128.Idx → EReal)
    = shapeCast S1x128 (m ((c : Thread nD τ).loc main_arg2)) shapeCasts_S128_S1x128 := by
  dsimp only [Gen.V, Gen.hostOps0]; after_results; rfl

theorem V_v1 (c : Dev nD) : (V m c main_v1 : S1x128.Idx → EReal)
    = shapeCast S1x128 (m ((c : Thread nD τ).loc main_arg4)) shapeCasts_S128_S1x128 := by
  dsimp only [Gen.V, Gen.hostOps0]; after_results; rfl

theorem V_v2 (c : Dev nD) : (V m c main_v2 : S1x128.Idx → EReal)
    = shapeCast S1x128 (m ((c : Thread nD τ).loc main_arg6)) shapeCasts_S128_S1x128 := by
  dsimp only [Gen.V, Gen.hostOps0]; after_results; rfl

/-- Window 0's block at point `t` holds batches `2t` and `2t + 1` of `X`. -/
theorem read0 (c : Dev nD) (t : Fin cfg0.N) (b : Fin 2) (r : Fin 4096) (d : Fin 256) (B : Fin 16) (hB : B.val = t.val * 2 + b.val) :
    iblk m c 0 t (ix3 b r d) = m ((c : Thread nD τ).loc main_arg0) (ix3 B r d) := by
  refine Eq.trans ?_ (congrFun (V_main_arg0 m c) (ix3 B r d))
  show V m c main_arg0 (((cfg0.win 0).blk t).view.emb (ix3 b r d)) = V m c main_arg0 (ix3 B r d)
  have hf := idx_facts t
  refine congrArg (V m c main_arg0) (funext fun a => Fin.ext ?_)
  match a with
  | ⟨0, _⟩ => show win0_0.index t (0 : Fin 3) * 2 + 1 * b.val = B.val; omega
  | ⟨1, _⟩ => show win0_0.index t (1 : Fin 3) * 4096 + 1 * r.val = r.val; omega
  | ⟨2, _⟩ => show win0_0.index t (2 : Fin 3) * 256 + 1 * d.val = d.val; omega

/-- Window 1's block is its whole array, argument 1, at every point. -/
theorem read1 (c : Dev nD) (t : Fin cfg0.N) : (iblk m c 1 t : S256x128.Idx → EReal) = m ((c : Thread nD τ).loc main_arg1) := by
  refine Eq.trans ?_ (V_main_arg1 m c)
  funext y
  show V m c main_arg1 (((cfg0.win 1).blk t).view.emb y) = V m c main_arg1 y
  have hf := idx_facts t
  refine congrArg (V m c main_arg1) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- Window 3's block is its whole array, argument 3, at every point. -/
theorem read3 (c : Dev nD) (t : Fin cfg0.N) : (iblk m c 3 t : S128x128.Idx → EReal) = m ((c : Thread nD τ).loc main_arg3) := by
  refine Eq.trans ?_ (V_main_arg3 m c)
  funext y
  show V m c main_arg3 (((cfg0.win 3).blk t).view.emb y) = V m c main_arg3 y
  have hf := idx_facts t
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 5's block is its whole array, argument 5, at every point. -/
theorem read5 (c : Dev nD) (t : Fin cfg0.N) : (iblk m c 5 t : S128x128.Idx → EReal) = m ((c : Thread nD τ).loc main_arg5) := by
  refine Eq.trans ?_ (V_main_arg5 m c)
  funext y
  show V m c main_arg5 (((cfg0.win 5).blk t).view.emb y) = V m c main_arg5 y
  have hf := idx_facts t
  refine congrArg (V m c main_arg5) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 2's block is the one-row matrix the host reshaped argument 2 into: its entry `(0, e)` is the bias's entry `e`. -/
theorem read2 (c : Dev nD) (t : Fin cfg0.N) (e : Fin 128) :
    iblk m c 2 t (ix2 (0 : Fin 1) e) = m ((c : Thread nD τ).loc main_arg2) (ix1 e) := by
  show V m c main_v0 (((cfg0.win 2).blk t).view.emb (ix2 (0 : Fin 1) e)) = _
  have hf := idx_facts t
  have hemb : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 128 + 1 * e.val = e.val; omega)
  rw [hemb, V_v0 m c]
  exact shapeCast_a_1a_apply _ _ (0 : Fin 1) e

/-- Window 4's block is the one-row matrix the host reshaped argument 4 into: its entry `(0, e)` is the bias's entry `e`. -/
theorem read4 (c : Dev nD) (t : Fin cfg0.N) (e : Fin 128) :
    iblk m c 4 t (ix2 (0 : Fin 1) e) = m ((c : Thread nD τ).loc main_arg4) (ix1 e) := by
  show V m c main_v1 (((cfg0.win 4).blk t).view.emb (ix2 (0 : Fin 1) e)) = _
  have hf := idx_facts t
  have hemb : ((cfg0.win 4).blk t).view.emb (ix2 (0 : Fin 1) e) = ix2 (0 : Fin 1) e := funext fun a => Fin.ext (by
    match a with
    | ⟨0, _⟩ => show win0_4.index t (0 : Fin 2) * 1 + 1 * 0 = 0; omega
    | ⟨1, _⟩ => show win0_4.index t (1 : Fin 2) * 128 + 1 * e.val = e.val; omega)
  rw [hemb, V_v1 m c]
  exact shapeCast_a_1a_apply _ _ (0 : Fin 1) e

/-- Window 6's block is the one-row matrix the host reshaped argument 6 into: its entry `(0, e)` is the bias's entry `e`. -/
theorem read6 (c : Dev nD) (t : Fin cfg0.N) (e : Fin 128) :
    iblk m c 6 t (ix2 (0 : Fin 1) e) = m ((c : Thread nD τ).loc main_arg6) (ix1 e) := by
  show V m c main_v2 (((cfg0.win 6).blk t).view.emb (ix2 (0 : Fin 1) e)) = _
  have hf := idx_facts t
  have hemb : ((cfg0.win 6).blk t).view.emb (ix2 (0 : Fin 1) e) = ix2 (0 : Fin 1) e := funext fun a => Fin.ext (by
    match a with
    | ⟨0, _⟩ => show win0_6.index t (0 : Fin 2) * 1 + 1 * 0 = 0; omega
    | ⟨1, _⟩ => show win0_6.index t (1 : Fin 2) * 128 + 1 * e.val = e.val; omega)
  rw [hemb, V_v2 m c]
  exact shapeCast_a_1a_apply _ _ (0 : Fin 1) e

/-! ## A block of the specification -/

/-- Over variables: if the loaded blocks are rows `2q, 2q+1` of `X`, the whole weights, and the biases as one-row
    matrices, then the output block at `y` is the specification at the index `i` that `y` has in the whole array. -/
theorem block_eq (X : (⟨3, ![16, 4096, 256]⟩ : Shape).Idx → EReal)
    (w0 : (⟨2, ![256, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (x0 : Vec Ideal S2x4096x256 .f32) (x1 : Vec Ideal S256x128 .f32) (x2 : Vec Ideal S1x128 .f32)
    (x3 : Vec Ideal S128x128 .f32) (x4 : Vec Ideal S1x128 .f32) (x5 : Vec Ideal S128x128 .f32) (x6 : Vec Ideal S1x128 .f32)
    (q : ℕ)
    (h0 : ∀ (b : Fin 2) (r : Fin 4096) (d : Fin 256) (B : Fin 16), B.val = q * 2 + b.val → x0 (ix3 b r d) = X (ix3 B r d))
    (h1 : x1 = w0) (h2 : ∀ e : Fin 128, x2 (ix2 (0 : Fin 1) e) = b0 (ix1 e))
    (h3 : x3 = w1) (h4 : ∀ e : Fin 128, x4 (ix2 (0 : Fin 1) e) = b1 (ix1 e))
    (h5 : x5 = w2) (h6 : ∀ e : Fin 128, x6 (ix2 (0 : Fin 1) e) = b2 (ix1 e))
    (y : S2x4096x128.Idx) (i : (⟨3, ![16, 4096, 128]⟩ : Shape).Idx)
    (hi0 : (i 0).val = q * 2 + (y 0).val) (hi1 : (i 1).val = (y 1).val) (hi2 : (i 2).val = (y 2).val) :
    blockOut x0 x1 x2 x3 x4 x5 x6 y = out X w0 b0 w1 b1 w2 b2 i := by
  obtain ⟨b, r, e, rfl⟩ : ∃ (b : Fin 2) (r : Fin 4096) (e : Fin 128), y = ix3 b r e := ⟨y 0, y 1, y 2, eq_ix3 y⟩
  obtain ⟨B, r', e', rfl⟩ : ∃ (B : Fin 16) (r' : Fin 4096) (e' : Fin 128), i = ix3 B r' e' := ⟨i 0, i 1, i 2, eq_ix3 i⟩
  have hr : r' = r := Fin.ext hi1
  have he : e' = e := Fin.ext hi2
  subst hr he
  have hB : B.val = q * 2 + b.val := hi0
  have key : ∀ k : Fin 4096, k0_pay2 x0 x1 x2 x3 x4 x5 x6 (ix3 b k e') = rows X w0 b0 w1 b1 w2 b2 (ix3 B k e') := fun k => by
    rw [pay2_at, rows_ix3, h1, h3, h5, funext h2, funext h4, funext h6, funext (fun d => h0 b k d B hB)]
  rw [out_ix3]
  show (∑ k : Fin 4096, k0_pay2 x0 x1 x2 x3 x4 x5 x6 (ix3 b k e')) - k0_pay2 x0 x1 x2 x3 x4 x5 x6 (ix3 b r' e')
    = (∑ k : Fin 4096, rows X w0 b0 w1 b1 w2 b2 (ix3 B k e')) - rows X w0 b0 w1 b1 w2 b2 (ix3 B r' e')
  rw [key r']
  exact congrArg (· - _) (Finset.sum_congr rfl fun k _ => key k)

/-! ## What a point writes back, the cover, and the run -/

/-- The kernel's result on core `c`: the specification of the seven arguments as launched. -/
def result (c : Dev nD) : (⟨3, ![16, 4096, 128]⟩ : Shape).Idx → EReal :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Point `t` writes back block `t` of the result. -/
theorem flushed_eq (c : Dev nD) (t : Fin cfg0.N) :
    (dats m 0 c).flushed 7 t = ((cfg0.win 7).blk t).view.read (Elt Ideal) (result m c) := by
  rw [Value.flushed7, out_eq]
  funext j
  show blockOut (iblk m c 0 t) (iblk m c 1 t) (iblk m c 2 t) (iblk m c 3 t) (iblk m c 4 t) (iblk m c 5 t) (iblk m c 6 t) j
    = result m c (((cfg0.win 7).blk t).view.emb j)
  have hf := idx_facts t
  refine block_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t) t.val
    (fun b r d B hB => read0 m c t b r d B hB) (read1 m c t) (fun e => read2 m c t e) (read3 m c t) (fun e => read4 m c t e)
    (read5 m c t) (fun e => read6 m c t e) j (((cfg0.win 7).blk t).view.emb j) ?_ ?_ ?_
  · show win0_7.index t (0 : Fin 3) * 2 + 1 * (j 0).val = t.val * 2 + (j 0).val; omega
  · show win0_7.index t (1 : Fin 3) * 4096 + 1 * (j 1).val = (j 1).val; omega
  · show win0_7.index t (2 : Fin 3) * 128 + 1 * (j 2).val = (j 2).val; omega

/-- An index of the result is in point `t`'s block iff each coordinate is in the block's range on its axis. -/
theorem mem_blk (t : Fin cfg0.N) (i : S16x4096x128.Idx) :
    i ∈ ((cfg0.win 7).blk t).view.set ↔ ∀ a : Fin 3, win0_7.index t a * S2x4096x128.size a ≤ (i a).val
      ∧ (i a).val < win0_7.index t a * S2x4096x128.size a + S2x4096x128.size a := by
  show i ∈ ((View.whole main_v3).slice (win0_7.rect t)).set ↔ _
  rw [View.set_slice_whole, Rect.mem_set_unit]
  exact Iff.rfl

/-- Every index of the result lies in the block of the point that owns its batch, `B / 2`. -/
theorem cover (i : S16x4096x128.Idx) :
    ∃ t : Fin cfg0.N, (cfg0.win 7).flush t = true ∧ i ∈ ((cfg0.win 7).blk t).view.set := by
  have hi0 : (i 0).val < 16 := (i 0).isLt
  have hi1 : (i 1).val < 4096 := (i 1).isLt
  have hi2 : (i 2).val < 128 := (i 2).isLt
  have hN : grid0.N = 8 := N_0
  have hlt : (i 0).val / 2 < cfg0.N := by show (i 0).val / 2 < grid0.N; rw [hN]; omega
  have hf := idx_facts ⟨(i 0).val / 2, hlt⟩
  have ht : (⟨(i 0).val / 2, hlt⟩ : Fin cfg0.N).val = (i 0).val / 2 := rfl
  refine ⟨⟨(i 0).val / 2, hlt⟩, flush0_7 _, ?_⟩
  rw [mem_blk]
  intro a
  match a with
  | ⟨0, _⟩ =>
    show win0_7.index ⟨(i 0).val / 2, hlt⟩ (0 : Fin 3) * 2 ≤ (i 0).val ∧ (i 0).val < win0_7.index ⟨(i 0).val / 2, hlt⟩ (0 : Fin 3) * 2 + 2
    omega
  | ⟨1, _⟩ =>
    show win0_7.index ⟨(i 0).val / 2, hlt⟩ (1 : Fin 3) * 4096 ≤ (i 1).val ∧ (i 1).val < win0_7.index ⟨(i 0).val / 2, hlt⟩ (1 : Fin 3) * 4096 + 4096
    omega
  | ⟨2, _⟩ =>
    show win0_7.index ⟨(i 0).val / 2, hlt⟩ (2 : Fin 3) * 128 ≤ (i 2).val ∧ (i 2).val < win0_7.index ⟨(i 0).val / 2, hlt⟩ (2 : Fin 3) * 128 + 128
    omega

/-- The result array after the run is the specification of the arguments. -/
theorem final (c : Dev nD) : (dats m 0 c).arrAt 7 cfg0.N = result m c :=
  (dats m 0 c).arrAt_eq_of_cover 7 (result m c) (fun t _ => flushed_eq m c t) cover

/-- Every weakly fair execution of the kernel's program terminates with the result at `result` and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.LooValue

end
-- ==== Proof.RefValue.lean ====
/-
  The reference program's result, at the ideal values, is the specification `LooSpec.out` of its seven arguments.

  The reference is a chain of host operations on whole arrays: three times a product with a weight matrix over the last
  axis plus a bias broadcast along the leading axes, a rectifier after the second, then the sum over the row axis,
  broadcast back, minus the array. Read at an index `(b, r, e)`, each product is the sum over the inner coordinate of
  entries of row `(b, r)`, each bias is its entry `e`, and the row-axis sum starts from the zero word, which is `0`.
  So the array before the final subtraction is `LooSpec.rows`, and the result is `LooSpec.out`.
-/
import proofs.«110217_j31619549233246_2_alg».proof.Proof.Gen.ReferenceIdeal.Read
import proofs.«110217_j31619549233246_2_alg».proof.Proof.LooSpec

noncomputable section

namespace Cert.ReferenceIdeal.RefValue

open Cert.ReferenceIdeal Cert.ReferenceIdeal.Read Cert.LooSpec Idealize.ShloMosaic Idealize.ShloMosaic.ValueIdx

variable (x0 : (⟨S16x4096x256, .f32⟩ : BufTy).Contents (Elt Ideal)) (x1 : (⟨S256x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-! ## The operations' index maps at `(b, r, e)` -/

theorem lidx0 (b : Fin 16) (r : Fin 4096) (e : Fin 128) (k : Fin 256) : lidx_main_v0 (ix3 b r e) k = ix3 b r k := funext fun a => Fin.ext (by match a with | ⟨0, _⟩ => rfl | ⟨1, _⟩ => rfl | ⟨2, _⟩ => rfl)
theorem ridx0 (b : Fin 16) (r : Fin 4096) (e : Fin 128) (k : Fin 256) : ridx_main_v0 (ix3 b r e) k = ix2 k e := funext fun a => Fin.ext (by match a with | ⟨0, _⟩ => rfl | ⟨1, _⟩ => rfl)
theorem lidx4 (b : Fin 16) (r : Fin 4096) (e : Fin 128) (k : Fin 128) : lidx_main_v4 (ix3 b r e) k = ix3 b r k := funext fun a => Fin.ext (by match a with | ⟨0, _⟩ => rfl | ⟨1, _⟩ => rfl | ⟨2, _⟩ => rfl)
theorem ridx4 (b : Fin 16) (r : Fin 4096) (e : Fin 128) (k : Fin 128) : ridx_main_v4 (ix3 b r e) k = ix2 k e := funext fun a => Fin.ext (by match a with | ⟨0, _⟩ => rfl | ⟨1, _⟩ => rfl)
theorem lidx9 (b : Fin 16) (r : Fin 4096) (e : Fin 128) (k : Fin 128) : lidx_main_v9 (ix3 b r e) k = ix3 b r k := funext fun a => Fin.ext (by match a with | ⟨0, _⟩ => rfl | ⟨1, _⟩ => rfl | ⟨2, _⟩ => rfl)
theorem ridx9 (b : Fin 16) (r : Fin 4096) (e : Fin 128) (k : Fin 128) : ridx_main_v9 (ix3 b r e) k = ix2 k e := funext fun a => Fin.ext (by match a with | ⟨0, _⟩ => rfl | ⟨1, _⟩ => rfl)
theorem bidx2 (b : Fin 16) (r : Fin 4096) (e : Fin 128) : idx_main_v1 (idx_main_v2 (ix3 b r e)) = ix1 e := funext fun a => Fin.ext (by match a with | ⟨0, _⟩ => rfl)
theorem bidx6 (b : Fin 16) (r : Fin 4096) (e : Fin 128) : idx_main_v5 (idx_main_v6 (ix3 b r e)) = ix1 e := funext fun a => Fin.ext (by match a with | ⟨0, _⟩ => rfl)
theorem bidx11 (b : Fin 16) (r : Fin 4096) (e : Fin 128) : idx_main_v10 (idx_main_v11 (ix3 b r e)) = ix1 e := funext fun a => Fin.ext (by match a with | ⟨0, _⟩ => rfl)
theorem sidx (b : Fin 16) (r : Fin 4096) (e : Fin 128) (k : Fin 4096) :
    idx_main_v13 (idx_main_v14 (idx_main_v15 (ix3 b r e))) k = ix3 b k e := funext fun a => Fin.ext (by match a with | ⟨0, _⟩ => rfl | ⟨1, _⟩ => rfl | ⟨2, _⟩ => rfl)

/-! ## The layers, one at a time -/

/-- After the first layer: `x · W_proj + b_proj` of row `(b, r)`. -/
theorem v3_at (b : Fin 16) (r : Fin 4096) (e : Fin 128) :
    val_main_v3 (F := Ideal) x0 x1 x2 (ix3 b r e) = affine x1 (fun e => x2 (ix1 e)) (fun d => x0 (ix3 b r d)) e := by
  rw [val_main_v3_apply, val_main_v0_apply, val_main_v2_apply, val_main_v1_apply, bidx2]
  show (∑ k : Fin 256, x0 (lidx_main_v0 (ix3 b r e) k) * x1 (ridx_main_v0 (ix3 b r e) k)) + x2 (ix1 e)
    = (∑ d : Fin 256, x0 (ix3 b r d) * x1 (ix2 d e)) + x2 (ix1 e)
  refine congrArg (· + x2 (ix1 e)) (Finset.sum_congr rfl fun k _ => ?_)
  rw [lidx0, ridx0]

/-- After the second layer, before the rectifier. -/
theorem v7_at (b : Fin 16) (r : Fin 4096) (e : Fin 128) :
    val_main_v7 (F := Ideal) x0 x1 x2 x3 x4 (ix3 b r e)
      = affine x3 (fun e => x4 (ix1 e)) (affine x1 (fun e => x2 (ix1 e)) (fun d => x0 (ix3 b r d))) e := by
  rw [val_main_v7_apply, val_main_v4_apply, val_main_v6_apply, val_main_v5_apply, bidx6]
  show (∑ k : Fin 128, val_main_v3 (F := Ideal) x0 x1 x2 (lidx_main_v4 (ix3 b r e) k) * x3 (ridx_main_v4 (ix3 b r e) k)) + x4 (ix1 e)
    = (∑ d : Fin 128, affine x1 (fun e => x2 (ix1 e)) (fun d => x0 (ix3 b r d)) d * x3 (ix2 d e)) + x4 (ix1 e)
  refine congrArg (· + x4 (ix1 e)) (Finset.sum_congr rfl fun k _ => ?_)
  rw [lidx4, ridx4, v3_at]

/-- After the rectifier: the maximum with the zero word, which is `0`. -/
theorem v8_at (b : Fin 16) (r : Fin 4096) (e : Fin 128) :
    val_main_v8 (F := Ideal) x0 x1 x2 x3 x4 (ix3 b r e)
      = max (affine x3 (fun e => x4 (ix1 e)) (affine x1 (fun e => x2 (ix1 e)) (fun d => x0 (ix3 b r d))) e) 0 := by
  rw [val_main_v8_apply, val_main_call0_v0_apply, val_main_call0_cst_apply, v7_at]
  show max _ (Ideal.ofBits .f32 0x00000000#32) = _
  rw [Ideal.ofBits_zero_f32]

/-- After the third layer: the three-layer image of row `(b, r)`. -/
theorem v12_at (b : Fin 16) (r : Fin 4096) (e : Fin 128) :
    val_main_v12 (F := Ideal) x0 x1 x2 x3 x4 x5 x6 (ix3 b r e)
      = mlp x1 (fun e => x2 (ix1 e)) x3 (fun e => x4 (ix1 e)) x5 (fun e => x6 (ix1 e)) (fun d => x0 (ix3 b r d)) e := by
  rw [val_main_v12_apply, val_main_v9_apply, val_main_v11_apply, val_main_v10_apply, bidx11]
  show (∑ k : Fin 128, val_main_v8 (F := Ideal) x0 x1 x2 x3 x4 (lidx_main_v9 (ix3 b r e) k) * x5 (ridx_main_v9 (ix3 b r e) k)) + x6 (ix1 e)
    = (∑ d : Fin 128, max (affine x3 (fun e => x4 (ix1 e)) (affine x1 (fun e => x2 (ix1 e)) (fun d => x0 (ix3 b r d))) d) 0 * x5 (ix2 d e)) + x6 (ix1 e)
  refine congrArg (· + x6 (ix1 e)) (Finset.sum_congr rfl fun k _ => ?_)
  rw [lidx9, ridx9, v8_at]

/-- The array before the final subtraction is `LooSpec.rows` of the arguments. -/
theorem v12_eq : val_main_v12 (F := Ideal) x0 x1 x2 x3 x4 x5 x6 = rows x0 x1 x2 x3 x4 x5 x6 := by
  funext i
  obtain ⟨b, r, e, rfl⟩ : ∃ (b : Fin 16) (r : Fin 4096) (e : Fin 128), i = ix3 b r e := ⟨i 0, i 1, i 2, eq_ix3 i⟩
  rw [v12_at, rows_ix3]

/-! ## The result -/

/-- The reference's result: the row-axis sum of `rows` (from the zero word), broadcast back, minus `rows`. -/
theorem result_eq : val_main_v16 (F := Ideal) x0 x1 x2 x3 x4 x5 x6 = out x0 x1 x2 x3 x4 x5 x6 := by
  funext i
  obtain ⟨b, r, e, rfl⟩ : ∃ (b : Fin 16) (r : Fin 4096) (e : Fin 128), i = ix3 b r e := ⟨i 0, i 1, i 2, eq_ix3 i⟩
  rw [val_main_v16_apply, val_main_v15_apply, val_main_v14_apply, val_main_v13_apply, val_main_cst_apply, v12_eq, out_ix3]
  show (Ideal.ofBits .f32 0x00000000#32
        + ∑ k : Fin 4096, rows x0 x1 x2 x3 x4 x5 x6 (idx_main_v13 (idx_main_v14 (idx_main_v15 (ix3 b r e))) k))
      - rows x0 x1 x2 x3 x4 x5 x6 (ix3 b r e)
    = (∑ k : Fin 4096, rows x0 x1 x2 x3 x4 x5 x6 (ix3 b k e)) - rows x0 x1 x2 x3 x4 x5 x6 (ix3 b r e)
  rw [Ideal.ofBits_zero_f32, zero_add]
  refine congrArg (· - rows x0 x1 x2 x3 x4 x5 x6 (ix3 b r e)) (Finset.sum_congr rfl fun k _ => ?_)
  rw [sidx]

end Cert.ReferenceIdeal.RefValue

end
-- ==== Proof.lean ====
/-
  The kernel and its reference compute the same array on the extended reals.

  Both send each row of `X` (16 batches of 4096 rows of 256 features) through three affine layers with a rectifier
  after the second — `p = x · W_proj + b_proj`, `h = max (p · W1 + b1) 0`, `m = h · W2 + b2` — and return, at
  `(b, n, e)`, the sum over the rows `k` of batch `b` of `m b k e` minus `m b n e` (`LooSpec.out`).
  The reference does this with three whole-array products over the last axis, a sum over the row axis started from
  the zero word, and a broadcast back (RefValue.lean). The kernel works on two batches per grid point, flattens them to
  8192 rows for the three products (each into a zero accumulator), un-flattens, and gets each batch's column sums by
  multiplying a row of ones into that batch's matrix (KernelPayload.lean); its 8 output blocks tile the result
  (KernelValue.lean). The two differ only in the layout of the rows, in the factor `1` (`1 * x = x`) and in the
  summand `0` (`0 + s = s`): the additions and multiplications are the same, in sums that are finite and so may be
  taken in any order, and no law that fails at an infinite entry is used; the precondition is never opened.
  The idealization of the kernel rewrote nothing, so `preserves` is trivial; the three frames are the generated ones,
  the reference's being its generated run with the result dropped.
-/
import proofs.«110217_j31619549233246_2_alg».proof.Defs
import proofs.«110217_j31619549233246_2_alg».proof.Proof.Gen.Kernel
import proofs.«110217_j31619549233246_2_alg».proof.Proof.Gen.Kernel.Skeleton
import proofs.«110217_j31619549233246_2_alg».proof.Proof.Gen.Kernel.Launch
import proofs.«110217_j31619549233246_2_alg».proof.Proof.Gen.Kernel.Points
import proofs.«110217_j31619549233246_2_alg».proof.Proof.Gen.Kernel.Frame
import proofs.«110217_j31619549233246_2_alg».proof.Proof.Gen.KernelIdeal
import proofs.«110217_j31619549233246_2_alg».proof.Proof.Gen.KernelIdeal.Skeleton
import proofs.«110217_j31619549233246_2_alg».proof.Proof.Gen.KernelIdeal.Launch
import proofs.«110217_j31619549233246_2_alg».proof.Proof.Gen.KernelIdeal.Points
import proofs.«110217_j31619549233246_2_alg».proof.Proof.Gen.KernelIdeal.Frame
import proofs.«110217_j31619549233246_2_alg».proof.Proof.Gen.ReferenceIdeal
import proofs.«110217_j31619549233246_2_alg».proof.Proof.Gen.Pre_finite_inputs
import proofs.«110217_j31619549233246_2_alg».proof.Proof.Gen.KernelIdeal.Value
import proofs.«110217_j31619549233246_2_alg».proof.Proof.Gen.ReferenceIdeal.Run
import proofs.«110217_j31619549233246_2_alg».proof.Proof.Gen.ReferenceIdeal.Read
import proofs.«110217_j31619549233246_2_alg».proof.Proof.KernelValue
import proofs.«110217_j31619549233246_2_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were: the generated frame. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the seven arguments, the kernel's result array and the reference's both end at
    `LooSpec.out` of those arguments. -/
theorem algebraic : Cert.algebraic_KernelIdeal_ReferenceIdeal := by
  intro m ρ m' ρ' _ hagree
  refine ⟨fun c => Cert.KernelIdeal.LooValue.result m c, Cert.KernelIdeal.LooValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
